-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3584 : Shape := ⟨2, ![16384, 3584]⟩
abbrev S3584 : Shape := ⟨1, ![3584]⟩
abbrev S_ : Shape := ⟨0, ![]⟩

class Facts : Prop where
  bcast_S_S16384x3584 : S_.BroadcastsInDim S16384x3584 (![] : Fin 0 → Fin S16384x3584.rank)
  reducesTo_S16384x3584_S_d0_1 : S16384x3584.ReducesTo [0, 1] S_
  h_S_ : 0 < S_.numel
  bcast_S_S3584 : S_.BroadcastsInDim S3584 (![] : Fin 0 → Fin S3584.rank)
  reducesTo_S3584_S_d0 : S3584.ReducesTo [0] S_

variable [Facts]

def fn {F : FTy → Type} [FloatOps F] (main_arg0 : FVec F S16384x3584 .f32) (main_arg1 : FVec F S16384x3584 .f32) (main_arg2 : FVec F S3584 .f32) : IVec S_ 1 :=
  let main_v0 : FVec F S16384x3584 .f32 := Host.absf main_arg0
  let main_cst : FVec F S_ .f32 := constant S_ .f32 0x7F800000#32
  let main_v1 : FVec F S16384x3584 .f32 := broadcastInDim S16384x3584 ![] bcast_S_S16384x3584 main_cst
  let main_v2 : IVec S16384x3584 1 := cmpf .olt main_v0 main_v1
  let main_c : IVec S_ 1 := constantI S_ 1 1#1
  let main_v3 : IVec S_ 1 := (fun x v => Host.reduce IntOp.andi x v reducesTo_S16384x3584_S_d0_1 h_S_) main_v2 main_c
  let main_v4 : FVec F S16384x3584 .f32 := Host.absf main_arg1
  let main_cst_0 : FVec F S_ .f32 := constant S_ .f32 0x7F800000#32
  let main_v5 : FVec F S16384x3584 .f32 := broadcastInDim S16384x3584 ![] bcast_S_S16384x3584 main_cst_0
  let main_v6 : IVec S16384x3584 1 := cmpf .olt main_v4 main_v5
  let main_c_1 : IVec S_ 1 := constantI S_ 1 1#1
  let main_v7 : IVec S_ 1 := (fun x v => Host.reduce IntOp.andi x v reducesTo_S16384x3584_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  main_v13
-- ==== Kernel.lean ====
abbrev S16384x3584 : Shape := ⟨2, ![16384, 3584]⟩
abbrev S3584 : Shape := ⟨1, ![3584]⟩
abbrev S1x3584 : Shape := ⟨2, ![1, 3584]⟩
abbrev S16384x4096 : Shape := ⟨2, ![16384, 4096]⟩
abbrev S256x3584 : Shape := ⟨2, ![256, 3584]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x3584, .f32⟩
  | .hbm, ⟨1, _⟩ => ⟨S16384x3584, .f32⟩
  | .hbm, ⟨2, _⟩ => ⟨S3584, .f32⟩
  | .hbm, ⟨3, _⟩ => ⟨S1x3584, .f32⟩
  | .hbm, ⟨4, _⟩ => ⟨S16384x4096, .f32⟩
  | .hbm, ⟨5, _⟩ => ⟨S16384x3584, .f32⟩
  | .local _ .vmem, ⟨0, _⟩ => ⟨S256x3584, .f32⟩
  | .local _ .vmem, ⟨1, _⟩ => ⟨S256x3584, .f32⟩
  | .local _ .vmem, ⟨2, _⟩ => ⟨S256x3584, .f32⟩
  | .local _ .vmem, ⟨3, _⟩ => ⟨S256x3584, .f32⟩
  | .local _ .vmem, ⟨4, _⟩ => ⟨S1x3584, .f32⟩
  | .local _ .vmem, ⟨5, _⟩ => ⟨S256x4096, .f32⟩
  | .local _ .vmem, ⟨6, _⟩ => ⟨S256x4096, .f32⟩
  | .local _ .vmem, ⟨7, _⟩ => ⟨S256x3584, .f32⟩
  | .local _ .vmem, ⟨8, _⟩ => ⟨S256x3584, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S3584_S1x3584 : S3584.ShapeCasts S1x3584
  inb_S256x3584_S256x3584_0_0 : ∀ a, (![0, 0] : Fin 2 → Nat) a + S256x3584.size a ≤ S256x3584.size a
  h_S256x3584 : 0 < S256x3584.numel
  reduces_S256x3584_S256 : S256x3584.Reduces [1] S256
  shapeCasts_S256_S256x1 : S256.ShapeCasts S256x1
  broadcasts_S256x1_S256x3584 : S256x1.Broadcasts S256x3584
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S256x3584 : S1x3584.Broadcasts S256x3584
  concatenates_S256x3584_S256x512_S256x4096_d1 : Shape.Concatenates [S256x3584, S256x512] S256x4096 1
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3584.size a ≤ S16384x3584.size a
  hwx0_0 : ∀ i : grid0.Coords, EltTy.bits .f32 = 32 ∨ (Rect.block (s := S16384x3584) S256x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3584.size a ≤ S16384x3584.size a
  hwx0_1 : ∀ i : grid0.Coords, EltTy.bits .f32 = 32 ∨ (Rect.block (s := S16384x3584) S256x3584.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x3584.size a
  hwx0_2 : ∀ i : grid0.Coords, EltTy.bits .f32 = 32 ∨ (Rect.block (s := S1x3584) S1x3584.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3584.size a ≤ S16384x3584.size a
  hwx0_4 : ∀ i : grid0.Coords, EltTy.bits .f32 = 32 ∨ (Rect.block (s := S16384x3584) S256x3584.size (cc0_transform_4 i) (hinb0_4 i)).WholeWords (EltTy.packing .f32)

variable [Facts₀]

abbrev win0_0 : Pipeline.Window sig grid0 :=
  Pipeline.Window.ofSpec (Memref.whole main_arg0) S256x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3584.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3584.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x3584.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x3584 : Shape := ⟨2, ![16384, 3584]⟩
abbrev S3584 : Shape := ⟨1, ![3584]⟩
abbrev S_ : Shape := ⟨0, ![]⟩
abbrev S16384 : Shape := ⟨1, ![16384]⟩
abbrev S16384x1 : Shape := ⟨2, ![16384, 1]⟩
abbrev S1x3584 : Shape := ⟨2, ![1, 3584]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x3584, .f32⟩
  | .hbm, ⟨1, _⟩ => ⟨S16384x3584, .f32⟩
  | .hbm, ⟨2, _⟩ => ⟨S3584, .f32⟩
  | .hbm, ⟨3, _⟩ => ⟨S16384x3584, .f32⟩
  | .hbm, ⟨4, _⟩ => ⟨S16384x3584, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x3584, .f32⟩
  | .hbm, ⟨16, _⟩ => ⟨S16384x3584, .f32⟩
  | .hbm, ⟨17, _⟩ => ⟨S1x3584, .f32⟩
  | .hbm, ⟨18, _⟩ => ⟨S16384x3584, .f32⟩
  | .hbm, ⟨19, _⟩ => ⟨S16384x3584, .f32⟩
  | .hbm, ⟨20, _⟩ => ⟨S_, .i32⟩
  | .hbm, ⟨21, _⟩ => ⟨S_, .f32⟩
  | .hbm, ⟨22, _⟩ => ⟨S16384x4096, .f32⟩
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S16384x3584_S16384_d1 : S16384x3584.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x3584_0_1 : S16384x1.BroadcastsInDim S16384x3584 (![0, 1] : Fin 2 → Fin S16384x3584.rank)
  bcast_S3584_S1x3584_1 : S3584.BroadcastsInDim S1x3584 (![1] : Fin 1 → Fin S1x3584.rank)
  bcast_S1x3584_S16384x3584_0_1 : S1x3584.BroadcastsInDim S16384x3584 (![0, 1] : Fin 2 → Fin S16384x3584.rank)
  pads_S16384x3584_S16384x4096_000_05120 : S16384x3584.Pads (![0, 0] : Fin 2 → Nat) ![0, 512] ![0, 0] S16384x4096

variable [Facts₀]

class Facts : Prop extends Facts₀ where

variable [Facts]
-- ==== Proof.Spec.lean ====
/-
  The function both programs compute, stated once over the argument arrays.

  Inputs: two [16384, 3584] arrays `x` and `r` and a weight vector `w` of 3584 entries, all of extended reals.
  * `resid x r` is the entrywise sum `x + r`: the second result.
  * `rowScale x r p` is the reciprocal root-mean-square of row `p` of that sum, with the stabiliser added under the
    root: `rsqrt (Σ_k (x + r)(p, k)² / 3584 + ε)`, the two constants kept as the binary words both programs spell.
  * `normed x r w p j` is `(x + r)(p, j) · rowScale p · w j`, multiplied in that order.
  * `paddedOut x r w` is the first result, [16384, 4096]: `normed` in the first 3584 columns and zero in the last 512.
  No law of arithmetic is needed to join the two programs: each performs exactly these operations in this order, the
  kernel on blocks of 256 rows and the reference on the whole arrays.
-/
import Idealize.ShloMosaic.PureOps.Ideal
import Idealize.ShloMosaic.PureOps.Ideal.Laws
import Idealize.ShloMosaic.Lib.ValueIdx

noncomputable section

open scoped BigOperators

namespace Cert.AddRmsNorm

open Idealize.ShloMosaic Idealize.ShloMosaic.ValueIdx

/-- The shape of `x`, `r` and the second result. -/
abbrev Rows : Shape := ⟨2, ![16384, 3584]⟩
/-- The shape of the weight vector. -/
abbrev Lanes : Shape := ⟨1, ![3584]⟩
/-- The shape of the first result: 512 columns of padding after the 3584. -/
abbrev Padded : Shape := ⟨2, ![16384, 4096]⟩

/-- The entrywise sum of the two arrays. -/
def resid (x r : Rows.Idx → EReal) : Rows.Idx → EReal := fun i => x i + r i

/-- The sum of the squares of row `p` of `x + r`. -/
def rowSquares (x r : Rows.Idx → EReal) (p : Fin 16384) : EReal :=
  ∑ k : Fin 3584, resid x r (ix2 p k) * resid x r (ix2 p k)

/-- Row `p`'s scale: `rsqrt (mean of squares + ε)`, the mean as the quotient by the word of 3584. -/
def rowScale (x r : Rows.Idx → EReal) (p : Fin 16384) : EReal :=
  Ideal.rsqrt (Ideal.div (rowSquares x r p) (Ideal.ofBits .f32 0x45600000#32) + Ideal.ofBits .f32 0x358637BD#32)

/-- The normalised, weighted entry `(p, j)`. -/
def normed (x r : Rows.Idx → EReal) (w : Lanes.Idx → EReal) (p : Fin 16384) (j : Fin 3584) : EReal :=
  resid x r (ix2 p j) * rowScale x r p * w (ix1 j)

/-- The first result: `normed` in columns below 3584, zero in the padding columns. -/
def paddedOut (x r : Rows.Idx → EReal) (w : Lanes.Idx → EReal) : Padded.Idx → EReal :=
  fun i => if h : (i 1).val < 3584 then normed x r w (i 0) ⟨(i 1).val, h⟩ else 0

theorem paddedOut_inside (x r : Rows.Idx → EReal) (w : Lanes.Idx → EReal) (p : Fin 16384) (j : Fin 4096)
    (h : j.val < 3584) : paddedOut x r w (ix2 p j) = normed x r w p ⟨j.val, h⟩ := by
  show (if h : j.val < 3584 then normed x r w p ⟨j.val, h⟩ else 0) = _
  rw [dif_pos h]

theorem paddedOut_outside (x r : Rows.Idx → EReal) (w : Lanes.Idx → EReal) (p : Fin 16384) (j : Fin 4096)
    (h : ¬ j.val < 3584) : paddedOut x r w (ix2 p j) = 0 := by
  show (if h : j.val < 3584 then normed x r w p ⟨j.val, h⟩ else 0) = _
  rw [dif_neg h]

end Cert.AddRmsNorm

end
-- ==== Proof.RefReads.lean ====
/-
  The reference program computes the specification.

  The reference adds the two arrays, squares, sums each row over its 3584 columns from a zero initial value, divides
  the column of sums by 3584, adds ε, takes the reciprocal square root, repeats that column along the rows, multiplies
  the sum by it and then by the weight row repeated down the rows, and pads 512 columns of the padding value (the
  integer 0 converted to a float) on the right. Read at an index, one operation at a time:
  * the row sum at row `p` is `0 + Σ_k (x + r)(p, k)²`, and the leading zero drops;
  * the scale column at `(p, 0)` is `rowScale x r p`;
  * entry `(p, j)` of the product is `normed x r w p j`;
  * the padded array at `(p, j)` is that entry for `j < 3584` and the padding value, zero, from column 3584 on.
-/
import proofs.«158021_j39256001085871_2_alg».proof.Proof.Gen.ReferenceIdeal.Read
import proofs.«158021_j39256001085871_2_alg».proof.Proof.Spec
import Idealize.ShloMosaic.Lib.KernelVsHost

noncomputable section

open scoped BigOperators

namespace Cert.AddRmsNorm.OnReference

open Idealize.ShloMosaic Idealize.ShloMosaic.ValueIdx
open Cert.ReferenceIdeal Cert.ReferenceIdeal.Gen Cert.ReferenceIdeal.Read Cert.AddRmsNorm

variable (x0 x1 : (⟨S16384x3584, .f32⟩ : BufTy).Contents (Elt Ideal)) (x2 : (⟨S3584, .f32⟩ : BufTy).Contents (Elt Ideal))

/-- The second result is the entrywise sum. -/
theorem sum_eq : val_main_v0 (F := Ideal) x0 x1 = resid x0 x1 := rfl

/-- The host's row sum, from its zero initial value, is the sum of the row's squares. -/
theorem rowSum (p : Fin 16384) : val_main_v2 (F := Ideal) x0 x1 (ix1 p) = rowSquares x0 x1 p := by
  rw [val_main_v2_apply, val_main_cst_apply]
  show Ideal.ofBits .f32 0x00000000#32 + _ = _
  rw [Ideal.ofBits_zero_f32, zero_add]
  refine Finset.sum_congr rfl fun k _ => ?_
  have e : idx_main_v2 (ix1 p) k = ix2 p k :=
    funext fun a => Fin.ext (by match a with | ⟨0, _⟩ => rfl | ⟨1, _⟩ => rfl)
  rw [e]
  rfl

/-- The column of scales, at row `p`. -/
theorem scale (p : Fin 16384) (u : Fin 1) : val_main_v8 (F := Ideal) x0 x1 (ix2 p u) = rowScale x0 x1 p := by
  rw [val_main_v8_apply, val_main_v7_apply, val_main_v5_apply, val_main_v3_apply, val_main_v4_apply,
    val_main_cst_0_apply, val_main_v6_apply, val_main_cst_1_apply]
  have e : idx_main_v3 (ix2 p u) = ix1 p := funext fun a => Fin.ext (by match a with | ⟨0, _⟩ => rfl)
  rw [e, rowSum]
  rfl

/-- Entry `(p, j)` of the product before padding. -/
theorem entry (p : Fin 16384) (j : Fin 3584) :
    val_main_v13 (F := Ideal) x0 x1 x2 (ix2 p j) = normed x0 x1 x2 p j := by
  rw [val_main_v13_apply, val_main_v10_apply, val_main_v0_apply, val_main_v9_apply, val_main_v12_apply,
    val_main_v11_apply]
  have e9 : idx_main_v9 (ix2 p j) = ix2 p (0 : Fin 1) :=
    funext fun a => Fin.ext (by match a with | ⟨0, _⟩ => rfl | ⟨1, _⟩ => rfl)
  have e11 : idx_main_v11 (idx_main_v12 (ix2 p j)) = ix1 j :=
    funext fun a => Fin.ext (by match a with | ⟨0, _⟩ => rfl)
  rw [e9, e11, scale]
  rfl

/-- The first result is the padded specification. -/
theorem out_eq : val_main_v14 (F := Ideal) x0 x1 x2 = paddedOut x0 x1 x2 := by
  funext i
  obtain ⟨p, j, rfl⟩ : ∃ (p : Fin 16384) (j : Fin 4096), i = ix2 p j := ⟨i 0, i 1, eq_ix2 i⟩
  unfold val_main_v14
  by_cases h : j.val < 3584
  · rw [paddedOut_inside x0 x1 x2 p j h, ← entry x0 x1 x2 p ⟨j.val, h⟩]
    exact pad_apply_of_inside _ _ _ _ _ pads_S16384x3584_S16384x4096_000_05120 h_S_ (ix2 p j) (ix2 p ⟨j.val, h⟩)
      (fun a => by
        match a with
        | ⟨0, _⟩ => show p.val = 0 + p.val * (0 + 1); omega
        | ⟨1, _⟩ => show j.val = 0 + j.val * (0 + 1); omega)
  · rw [paddedOut_outside x0 x1 x2 p j h]
    refine (pad_apply_of_not_inside _ _ _ _ _ pads_S16384x3584_S16384x4096_000_05120 h_S_ (ix2 p j) (1 : Fin 2) ?_).trans ?_
    · show ¬ (0 ≤ j.val ∧ (j.val - 0) % (0 + 1) = 0 ∧ (j.val - 0) / (0 + 1) < 3584)
      omega
    · exact sitofp_zero (φ := .f32)

end Cert.AddRmsNorm.OnReference

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.BodyReads.lean ====
/-
  What the kernel body stores, read at an index of the block.

  At one grid point the body loads a block of 256 rows of each array (`a`, `b`) and the weight row (`wr`, shape
  [1, 3584]). It stores `a + b` as the second result's block. For the first result it squares that sum, sums each
  row over its 3584 lanes (from the neutral accumulator, so no initial term remains), views the 256 sums as a column,
  divides by 3584, adds ε, takes the reciprocal square root, repeats the column along the lanes, multiplies the sum by
  it and by the weight row repeated down the rows, and appends 512 zero columns. Read at `(q, j)`:
  * for `j < 3584` the entry lies in the first piece of the concatenation and is
    `(a + b)(q, j) · blockScale a b q · wr(0, j)`;
  * from column 3584 on it lies in the second piece, the splat of the zero word.
-/
import proofs.«158021_j39256001085871_2_alg».proof.Proof.Gen.KernelIdeal.Skeleton
import proofs.«158021_j39256001085871_2_alg».proof.Proof.LibKeepdims
import proofs.«158021_j39256001085871_2_alg».proof.Proof.LibColumnBroadcast
import proofs.«158021_j39256001085871_2_alg».proof.Proof.LibRowBroadcast
import Idealize.ShloMosaic.Lib.Pipeline.Value
import Idealize.ShloMosaic.Lib.ValueIdx
import Idealize.ShloMosaic.PureOps.Ideal.Laws

noncomputable section

open scoped BigOperators

namespace Cert.AddRmsNorm.OnKernel

open Idealize.ShloMosaic Idealize.ShloMosaic.ValueIdx
open Cert.KernelIdeal Cert.KernelIdeal.Gen

variable (a b : FVec Ideal S256x3584 .f32) (wr : FVec Ideal S1x3584 .f32)

/-- The second result's block is the entrywise sum of the two loaded blocks. -/
theorem pay1_apply (i : S256x3584.Idx) : k0_pay1 (F := Ideal) a b i = a i + b i := rfl

/-- Row `q` of the block: the scale `rsqrt (Σ_k (a + b)(q, k)² / 3584 + ε)`. -/
def blockScale (q : Fin 256) : EReal :=
  Ideal.rsqrt (Ideal.div (∑ k : Fin 3584, (a (ix2 q k) + b (ix2 q k)) * (a (ix2 q k) + b (ix2 q k)))
    (Ideal.ofBits .f32 0x45600000#32) + Ideal.ofBits .f32 0x358637BD#32)

/-- The lane sum of the squares at row `q`. -/
theorem laneSum (q : Fin 256) :
    multiReduction (F := Ideal) .add [1] S256 (mulf (k0_pay1 a b) (k0_pay1 a b)) 0x00000000#32 reduces_S256x3584_S256 (.inl rfl) rfl (ix1 q)
      = ∑ k : Fin 3584, (a (ix2 q k) + b (ix2 q k)) * (a (ix2 q k) + b (ix2 q k)) :=
  Cert.MemAttn.Layout.multiReduction_add_row (mulf (k0_pay1 a b) (k0_pay1 a b)) 0x00000000#32 reduces_S256x3584_S256 (.inl rfl) rfl q

/-- The column of scales the body computes, at row `q`. -/
theorem scaleColumn (q : Fin 256) (u : Fin 1) :
    (rsqrt (addf (divf (shapeCast S256x1 (multiReduction (F := Ideal) .add [1] S256 (mulf (k0_pay1 a b) (k0_pay1 a b)) 0x00000000#32 reduces_S256x3584_S256 (.inl rfl) rfl) shapeCasts_S256_S256x1)
        (broadcast S256x1 (Scalar.ofBits (F := Ideal) .f32 0x45600000#32)))
        (broadcast S256x1 (Scalar.ofBits (F := Ideal) .f32 0x358637BD#32))) : FVec Ideal S256x1 .f32) (ix2 q u)
      = blockScale a b q := by
  show Ideal.rsqrt (Ideal.div (shapeCast S256x1 (multiReduction (F := Ideal) .add [1] S256 (mulf (k0_pay1 a b) (k0_pay1 a b)) 0x00000000#32 reduces_S256x3584_S256 (.inl rfl) rfl) shapeCasts_S256_S256x1 (ix2 q u))
      (Ideal.ofBits .f32 0x45600000#32) + Ideal.ofBits .f32 0x358637BD#32) = _
  exact congrArg (fun s => Ideal.rsqrt (Ideal.div s (Ideal.ofBits .f32 0x45600000#32) + Ideal.ofBits .f32 0x358637BD#32))
    ((Cert.MemAttn.Layout.shapeCast_a_a1_apply _ shapeCasts_S256_S256x1 q u).trans (laneSum a b q))

/-- Inside the first 3584 columns the stored entry is the normalised, weighted sum. -/
theorem pay2_inside (q : Fin 256) (j : Fin 4096) (h : j.val < 3584) :
    k0_pay2 (F := Ideal) a b wr (ix2 q j)
      = (a (ix2 q ⟨j.val, h⟩) + b (ix2 q ⟨j.val, h⟩)) * blockScale a b q * wr (ix2 (0 : Fin 1) ⟨j.val, h⟩) := by
  unfold k0_pay2
  refine (concatenate_pair_apply_left (t := S256x4096) (s₁ := S256x3584) (s₂ := S256x512) (1 : Fin 2) _ _
    concatenates_S256x3584_S256x512_S256x4096_d1 (ix2 q j) rfl
    (ix2 q (⟨j.val, h⟩ : Fin 3584)) (fun c => by match c with | ⟨0, _⟩ => rfl | ⟨1, _⟩ => rfl)).trans ?_
  show k0_pay1 a b (ix2 q ⟨j.val, h⟩)
      * broadcastTo S256x3584 _ broadcasts_S256x1_S256x3584 (ix2 q (⟨j.val, h⟩ : Fin 3584))
      * broadcastTo S256x3584 (shapeCast S1x3584 wr shapeCasts_S1x3584_S1x3584) broadcasts_S1x3584_S256x3584 (ix2 q (⟨j.val, h⟩ : Fin 3584)) = _
  rw [Cert.WeightUpdate.Layout.broadcastTo_a1_ab_apply, Cert.RowBroadcast.row_broadcast_apply, shapeCast_self, scaleColumn]
  rfl

/-- From column 3584 on the stored entry is zero. -/
theorem pay2_outside (q : Fin 256) (j : Fin 4096) (h : ¬ j.val < 3584) :
    k0_pay2 (F := Ideal) a b wr (ix2 q j) = 0 := by
  unfold k0_pay2
  refine (concatenate_pair_apply_right (t := S256x4096) (s₁ := S256x3584) (s₂ := S256x512) (1 : Fin 2) _ _
    concatenates_S256x3584_S256x512_S256x4096_d1 (ix2 q j) rfl rfl
    (ix2 q (⟨j.val - 3584, by have := j.isLt; omega⟩ : Fin 512))
    (fun c hc => by match c with | ⟨0, _⟩ => rfl | ⟨1, _⟩ => exact absurd rfl hc)
    (by show (j.val - 3584) + 3584 = j.val; omega)).trans ?_
  show Ideal.ofBits .f32 0x00000000#32 = 0
  exact Ideal.ofBits_zero_f32

end Cert.AddRmsNorm.OnKernel

end
-- ==== Proof.BlockToArray.lean ====
/-
  From what each grid point writes back to the two result arrays.

  The grid has 64 points. At point `t` each [16384, ·] window's block is rows `256 t … 256 t + 255` (all columns) of
  its array, and the weight window's block is always the whole one-row array the host reshape made of the weight
  vector. So the loaded blocks are rows of the arguments, the stored blocks are — by the body's entries read at an
  index — the same rows of the specification's two arrays, and since the 64 row blocks tile the arrays each result
  array ends holding the specification whole.
-/
import proofs.«158021_j39256001085871_2_alg».proof.Proof.Gen.KernelIdeal.Value
import proofs.«158021_j39256001085871_2_alg».proof.Proof.Spec
import proofs.«158021_j39256001085871_2_alg».proof.Proof.BodyReads
import Idealize.ShloMosaic.Lib.Pipeline.Value
import Idealize.ShloMosaic.Lib.StableHlo.Run
import Idealize.ShloMosaic.Lib.ValueIdx

noncomputable section

open scoped BigOperators

namespace Cert.AddRmsNorm.OnKernel

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.KernelIdeal.Value Cert.AddRmsNorm

variable (m : (ℓ : Loc nD τ sig) → Buf (Elt Ideal) ℓ) (ρ : Dev nD → PrngReg)

theorem zeroOffsets : (![0, 0] : Fin 2 → Nat) = fun _ => 0 := funext fun a => by fin_cases a <;> rfl

/-- The index maps over the grid: the four row windows sit at block row `t`, block column 0; the weight window at (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The loaded blocks as rows of the arguments -/

/-- Block `t` of the first argument, at `(q, k)`, is the argument's entry `(256 t + q, k)`. -/
theorem xBlock_apply (c : Dev nD) (t : Fin cfg0.N) (q : Fin 256) (k : Fin 3584) (r : Fin 16384)
    (hr : r.val = 256 * t.val + q.val) :
    (iblk m c 0 t : Vec Ideal S256x3584 .f32) (ix2 q k)
      = (m ((c : Thread nD τ).loc main_arg0) : S16384x3584.Idx → EReal) (ix2 r k) := by
  obtain ⟨e0, e1, -⟩ := blockIndex t
  unfold iblk
  rw [View.read_apply]
  show V m c main_arg0 _ = _
  rw [V_main_arg0]
  refine congrArg _ (funext fun a => Fin.ext ?_)
  match a with
  | ⟨0, _⟩ => show win0_0.index t (0 : Fin 2) * 256 + 1 * q.val = r.val; rw [e0, hr]; omega
  | ⟨1, _⟩ => show win0_0.index t (1 : Fin 2) * 3584 + 1 * k.val = k.val; rw [e1]; omega

/-- Block `t` of the second argument, at `(q, k)`, is the argument's entry `(256 t + q, k)`. -/
theorem rBlock_apply (c : Dev nD) (t : Fin cfg0.N) (q : Fin 256) (k : Fin 3584) (r : Fin 16384)
    (hr : r.val = 256 * t.val + q.val) :
    (iblk m c 1 t : Vec Ideal S256x3584 .f32) (ix2 q k)
      = (m ((c : Thread nD τ).loc main_arg1) : S16384x3584.Idx → EReal) (ix2 r k) := by
  obtain ⟨-, -, e0, e1, -⟩ := blockIndex t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = r.val; rw [e0, hr]; omega
  | ⟨1, _⟩ => show win0_1.index t (1 : Fin 2) * 3584 + 1 * k.val = k.val; rw [e1]; omega

/-- The one-row array the region finds in the weight window: the weight vector reshaped. -/
theorem weightRow (c : Dev nD) :
    (V m c main_v0 : S1x3584.Idx → EReal)
      = shapeCast S1x3584 (m ((c : Thread nD τ).loc main_arg2) : S3584.Idx → EReal) shapeCasts_S3584_S1x3584 := by
  dsimp only [Gen.V, Gen.hostOps0]; after_results; rfl

/-- A vector of 3584 entries viewed as one row reads, at `(u, k)`, its entry `k`. -/
theorem oneRow_apply (x : S3584.Idx → EReal) (u : Fin 1) (k : Fin 3584) :
    shapeCast S1x3584 x shapeCasts_S3584_S1x3584 (ix2 u k) = x (ix1 k) :=
  shapeCast_apply x shapeCasts_S3584_S1x3584 _ _ (by
    have hu : u.val = 0 := by omega
    rw [Shape.rowMajor_val_two, Shape.rowMajor_val_one]
    show k.val = u.val * 3584 + k.val
    omega)

/-- The weight window's block, at `(0, k)`, is the weight's entry `k`, at every point. -/
theorem wBlock_apply (c : Dev nD) (t : Fin cfg0.N) (k : Fin 3584) :
    (iblk m c 2 t : Vec Ideal S1x3584 .f32) (ix2 (0 : Fin 1) k)
      = (m ((c : Thread nD τ).loc main_arg2) : S3584.Idx → EReal) (ix1 k) := by
  obtain ⟨-, -, -, -, e0, e1, -⟩ := blockIndex t
  unfold iblk
  rw [View.read_apply]
  show (V m c main_v0 : S1x3584.Idx → EReal) _ = _
  rw [weightRow]
  refine Eq.trans (congrArg _ (funext fun a => Fin.ext ?_))
    (oneRow_apply (m ((c : Thread nD τ).loc main_arg2) : S3584.Idx → EReal) (0 : Fin 1) k)
  match a with
  | ⟨0, _⟩ => show win0_2.index t (0 : Fin 2) * 1 + 1 * 0 = 0; rw [e0]
  | ⟨1, _⟩ => show win0_2.index t (1 : Fin 2) * 3584 + 1 * k.val = k.val; rw [e1]; omega

/-! ## One grid point, over plain variables -/

/-- If the loaded blocks `a`, `b` are rows `256 t + q` of `X`, `R` and the loaded row is `W`, the first stored block
    is the same rows of the padded specification. -/
theorem storedOut (X R : Rows.Idx → EReal) (W : Lanes.Idx → EReal) (a b : FVec Ideal S256x3584 .f32)
    (wr : FVec Ideal S1x3584 .f32) (rowOf : Fin 256 → Fin 16384)
    (ha : ∀ (q : Fin 256) (k : Fin 3584), a (ix2 q k) = X (ix2 (rowOf q) k))
    (hb : ∀ (q : Fin 256) (k : Fin 3584), b (ix2 q k) = R (ix2 (rowOf q) k))
    (hw : ∀ k : Fin 3584, wr (ix2 (0 : Fin 1) k) = W (ix1 k)) (q : Fin 256) (j : Fin 4096) :
    k0_pay2 (F := Ideal) a b wr (ix2 q j) = paddedOut X R W (ix2 (rowOf q) j) := by
  have hs : blockScale a b q = rowScale X R (rowOf q) := by
    unfold blockScale rowScale rowSquares resid
    refine congrArg (fun s => Ideal.rsqrt (Ideal.div s (Ideal.ofBits .f32 0x45600000#32) + Ideal.ofBits .f32 0x358637BD#32)) ?_
    exact Finset.sum_congr rfl fun k _ => by rw [ha q k, hb q k]
  by_cases h : j.val < 3584
  · rw [pay2_inside a b wr q j h, paddedOut_inside X R W (rowOf q) j h, ha, hb, hw, hs]
    rfl
  · rw [pay2_outside a b wr q j h, paddedOut_outside X R W (rowOf q) j h]

/-- Likewise the second stored block is the same rows of the entrywise sum. -/
theorem storedSum (X R : Rows.Idx → EReal) (a b : FVec Ideal S256x3584 .f32) (rowOf : Fin 256 → Fin 16384)
    (ha : ∀ (q : Fin 256) (k : Fin 3584), a (ix2 q k) = X (ix2 (rowOf q) k))
    (hb : ∀ (q : Fin 256) (k : Fin 3584), b (ix2 q k) = R (ix2 (rowOf q) k)) (q : Fin 256) (k : Fin 3584) :
    k0_pay1 (F := Ideal) a b (ix2 q k) = resid X R (ix2 (rowOf q) k) := by
  rw [pay1_apply, ha, hb]
  rfl

/-- Row `q` of block `t` is row `256 t + q` of the array. -/
def rowAt (t : Fin cfg0.N) (q : Fin 256) : Fin 16384 :=
  ⟨256 * t.val + q.val, by have h : t.val < 64 := N_0 ▸ t.isLt; have := q.isLt; omega⟩

/-! ## What each point writes back -/

/-- Point `t` writes back block `t` of the padded specification of the argument arrays. -/
theorem flushedOut (c : Dev nD) (t : Fin cfg0.N) :
    (dats m 0 c).flushed 3 t = ((cfg0.win 3).blk t).view.read (Elt Ideal)
      (paddedOut (m ((c : Thread nD τ).loc main_arg0)) (m ((c : Thread nD τ).loc main_arg1)) (m ((c : Thread nD τ).loc main_arg2))) := by
  rw [flushed3]
  unfold out0_3
  rw [View.canon_unit_zero zeroOffsets]
  simp only [View.ld_unit_zero (S := S256x3584) zeroOffsets, View.ld_unit_zero (S := S1x3584) zeroOffsets]
  obtain ⟨-, -, -, -, -, -, e0, e1, -⟩ := blockIndex t
  funext y
  obtain ⟨q, j, rfl⟩ : ∃ (q : Fin 256) (j : Fin 4096), y = ix2 q j := ⟨y 0, y 1, eq_ix2 y⟩
  show k0_pay2 (F := Ideal) (iblk m c 0 t) (iblk m c 1 t) (iblk m c 2 t) (ix2 q j)
    = paddedOut _ _ _ (((cfg0.win 3).blk t).view.emb (ix2 q j))
  have hemb : ((cfg0.win 3).blk t).view.emb (ix2 q j) = ix2 (rowAt t q) j := by
    funext a; apply Fin.ext
    match a with
    | ⟨0, _⟩ => show win0_3.index t (0 : Fin 2) * 256 + 1 * q.val = 256 * t.val + q.val; rw [e0]; omega
    | ⟨1, _⟩ => show win0_3.index t (1 : Fin 2) * 4096 + 1 * j.val = j.val; rw [e1]; omega
  rw [hemb]
  exact storedOut _ _ _ (iblk m c 0 t) (iblk m c 1 t) (iblk m c 2 t) (rowAt t)
    (fun q k => xBlock_apply m c t q k (rowAt t q) rfl) (fun q k => rBlock_apply m c t q k (rowAt t q) rfl)
    (fun k => wBlock_apply m c t k) q j

/-- Point `t` writes back block `t` of the entrywise sum of the argument arrays. -/
theorem flushedSum (c : Dev nD) (t : Fin cfg0.N) :
    (dats m 0 c).flushed 4 t = ((cfg0.win 4).blk t).view.read (Elt Ideal)
      (resid (m ((c : Thread nD τ).loc main_arg0)) (m ((c : Thread nD τ).loc main_arg1))) := by
  rw [flushed4]
  unfold out0_4
  rw [View.canon_unit_zero zeroOffsets]
  simp only [View.ld_unit_zero (S := S256x3584) zeroOffsets]
  obtain ⟨-, -, -, -, -, -, -, -, e0, e1⟩ := blockIndex t
  funext y
  obtain ⟨q, k, rfl⟩ : ∃ (q : Fin 256) (k : Fin 3584), y = ix2 q k := ⟨y 0, y 1, eq_ix2 y⟩
  show k0_pay1 (F := Ideal) (iblk m c 0 t) (iblk m c 1 t) (ix2 q k)
    = resid _ _ (((cfg0.win 4).blk t).view.emb (ix2 q k))
  have hemb : ((cfg0.win 4).blk t).view.emb (ix2 q k) = ix2 (rowAt t q) k := by
    funext a; apply Fin.ext
    match a with
    | ⟨0, _⟩ => show win0_4.index t (0 : Fin 2) * 256 + 1 * q.val = 256 * t.val + q.val; rw [e0]; omega
    | ⟨1, _⟩ => show win0_4.index t (1 : Fin 2) * 3584 + 1 * k.val = k.val; rw [e1]; omega
  rw [hemb]
  exact storedSum _ _ (iblk m c 0 t) (iblk m c 1 t) (rowAt t)
    (fun q k => xBlock_apply m c t q k (rowAt t q) rfl) (fun q k => rBlock_apply m c t q k (rowAt t q) rfl) q k

/-! ## The 64 row blocks tile each result array -/

theorem mem_outBlock (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1_0).slice (win0_3.rect t)).set ↔ _
  rw [View.set_slice_whole, Rect.mem_set_unit]
  exact Iff.rfl

theorem mem_sumBlock (t : Fin cfg0.N) (i : S16384x3584.Idx) :
    i ∈ ((cfg0.win 4).blk t).view.set ↔ ∀ a : Fin 2, win0_4.index t a * S256x3584.size a ≤ (i a).val
      ∧ (i a).val < win0_4.index t a * S256x3584.size a + S256x3584.size a := by
  show i ∈ ((View.whole main_v1_1).slice (win0_4.rect t)).set ↔ _
  rw [View.set_slice_whole, Rect.mem_set_unit]
  exact Iff.rfl

/-- Row `r` lies in the block of point `r / 256`. -/
theorem coverOut (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 64 := N_0
  let t : Fin cfg0.N := ⟨(i 0).val / 256, by show (i 0).val / 256 < grid0.N; rw [hN]; omega⟩
  obtain ⟨-, -, -, -, -, -, e0, e1, -⟩ := blockIndex t
  refine ⟨t, flush0_3 t, ?_⟩
  rw [mem_outBlock]
  intro a
  match a with
  | ⟨0, _⟩ =>
    show win0_3.index t (0 : Fin 2) * 256 ≤ (i 0).val ∧ (i 0).val < win0_3.index t (0 : Fin 2) * 256 + 256
    rw [e0]; show (i 0).val / 256 * 256 ≤ (i 0).val ∧ (i 0).val < (i 0).val / 256 * 256 + 256; omega
  | ⟨1, _⟩ =>
    show win0_3.index t (1 : Fin 2) * 4096 ≤ (i 1).val ∧ (i 1).val < win0_3.index t (1 : Fin 2) * 4096 + 4096
    rw [e1]; omega

theorem coverSum (i : S16384x3584.Idx) :
    ∃ t : Fin cfg0.N, (cfg0.win 4).flush t = true ∧ i ∈ ((cfg0.win 4).blk t).view.set := by
  have hi0 : (i 0).val < 16384 := (i 0).isLt
  have hi1 : (i 1).val < 3584 := (i 1).isLt
  have hN : grid0.N = 64 := N_0
  let t : Fin cfg0.N := ⟨(i 0).val / 256, by show (i 0).val / 256 < grid0.N; rw [hN]; omega⟩
  obtain ⟨-, -, -, -, -, -, -, -, e0, e1⟩ := blockIndex t
  refine ⟨t, flush0_4 t, ?_⟩
  rw [mem_sumBlock]
  intro a
  match a with
  | ⟨0, _⟩ =>
    show win0_4.index t (0 : Fin 2) * 256 ≤ (i 0).val ∧ (i 0).val < win0_4.index t (0 : Fin 2) * 256 + 256
    rw [e0]; show (i 0).val / 256 * 256 ≤ (i 0).val ∧ (i 0).val < (i 0).val / 256 * 256 + 256; omega
  | ⟨1, _⟩ =>
    show win0_4.index t (1 : Fin 2) * 3584 ≤ (i 1).val ∧ (i 1).val < win0_4.index t (1 : Fin 2) * 3584 + 3584
    rw [e1]; omega

/-! ## The arrays after the run, and the run -/

theorem finalOut (c : Dev nD) : (dats m 0 c).arrAt 3 cfg0.N
    = paddedOut (m ((c : Thread nD τ).loc main_arg0)) (m ((c : Thread nD τ).loc main_arg1)) (m ((c : Thread nD τ).loc main_arg2)) :=
  (dats m 0 c).arrAt_eq_of_cover 3 _ (fun t _ => flushedOut m c t) coverOut

theorem finalSum (c : Dev nD) : (dats m 0 c).arrAt 4 cfg0.N
    = resid (m ((c : Thread nD τ).loc main_arg0)) (m ((c : Thread nD τ).loc main_arg1)) :=
  (dats m 0 c).arrAt_eq_of_cover 4 _ (fun t _ => flushedSum m c t) coverSum

/-- The kernel's run: the two result arrays end at the specification of the arguments, the arguments unchanged. -/
theorem run : θ_run defs (onTc (τ := τ) (main (F := Ideal))) ⟨m, fun _ => 0, ρ⟩ fun r => ∀ c : Dev nD,
      r.2.mem ((c : Thread nD τ).loc main_v1_0)
        = paddedOut (m ((c : Thread nD τ).loc main_arg0)) (m ((c : Thread nD τ).loc main_arg1)) (m ((c : Thread nD τ).loc main_arg2))
      ∧ r.2.mem ((c : Thread nD τ).loc main_v1_1)
        = resid (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalOut m c), (h c).2.1.trans (finalSum m c), (h c).2.2⟩)
    (run_blocks m ρ)

end Cert.AddRmsNorm.OnKernel

end
-- ==== Proof.lean ====
/-
  A fused residual add, RMS normalisation, weighting and zero padding, against its plain array reference.

  Both programs take `x`, `r` of shape [16384, 3584] and a weight vector `w` of 3584 entries, and return
    h   = x + r                                                            ([16384, 3584])
    out = [ h · rsqrt(mean_k h(p, k)² + ε) · w  |  512 zero columns ]      ([16384, 4096])
  The kernel does this on a grid of 64 points, 256 rows per point: it loads the rows' blocks of `x` and `r` and the
  weight as one row, stores the block of `h`, and stores the block of `out` as a concatenation of the normalised,
  weighted rows with a zero splat. The reference does the same operations on the whole arrays and pads on the right.

  Over the extended reals the two agree entry by entry with no law of arithmetic beyond `0 + s = s`: the mean is the
  same quotient by the same word of 3584 on both sides, ε is the same word, the reciprocal square root is one
  function, and the three factors are multiplied in the same order. A row's statistic depends on that row only, so
  cutting the rows into blocks changes nothing; the lane sum on the vector unit (from its neutral accumulator) and
  the host's sum (from a zero initial value) are both the sum of the row's 3584 squares. No finiteness of the inputs
  is used.

  The pieces: `Spec` states the two result arrays as functions of the arguments; `RefReads` reads the reference's
  run as that function; `BodyReads` reads the kernel body's two stored values at an index; `BlockToArray` carries
  them from blocks to whole arrays over the grid. The three frames are the generated ones (the reference's is its run
  with the results dropped); the idealisation rewrote nothing, so `preserves` is trivial.
-/
import proofs.«158021_j39256001085871_2_alg».proof.Defs
import proofs.«158021_j39256001085871_2_alg».proof.Proof.Gen.Kernel
import proofs.«158021_j39256001085871_2_alg».proof.Proof.Gen.Kernel.Skeleton
import proofs.«158021_j39256001085871_2_alg».proof.Proof.Gen.Kernel.Launch
import proofs.«158021_j39256001085871_2_alg».proof.Proof.Gen.Kernel.Points
import proofs.«158021_j39256001085871_2_alg».proof.Proof.Gen.Kernel.Frame
import proofs.«158021_j39256001085871_2_alg».proof.Proof.Gen.KernelIdeal
import proofs.«158021_j39256001085871_2_alg».proof.Proof.Gen.KernelIdeal.Skeleton
import proofs.«158021_j39256001085871_2_alg».proof.Proof.Gen.KernelIdeal.Launch
import proofs.«158021_j39256001085871_2_alg».proof.Proof.Gen.KernelIdeal.Points
import proofs.«158021_j39256001085871_2_alg».proof.Proof.Gen.KernelIdeal.Frame
import proofs.«158021_j39256001085871_2_alg».proof.Proof.Gen.ReferenceIdeal
import proofs.«158021_j39256001085871_2_alg».proof.Proof.Gen.Pre_finite_inputs
import proofs.«158021_j39256001085871_2_alg».proof.Proof.Gen.KernelIdeal.Value
import proofs.«158021_j39256001085871_2_alg».proof.Proof.Gen.ReferenceIdeal.Run
import proofs.«158021_j39256001085871_2_alg».proof.Proof.Gen.ReferenceIdeal.Read
import proofs.«158021_j39256001085871_2_alg».proof.Proof.Spec
import proofs.«158021_j39256001085871_2_alg».proof.Proof.RefReads
import proofs.«158021_j39256001085871_2_alg».proof.Proof.BlockToArray
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealisation is the kernel's own text read over the extended reals: nothing was rewritten. -/
theorem preserves : Cert.preserves_Kernel_KernelIdeal := trivial

/-- From memories that agree on the three arguments, the kernel's two result arrays end at the specification of the
    arguments (`OnKernel.run`), and the reference's at its run's terms, which are the same specification
    (`OnReference.out_eq`, `OnReference.sum_eq`). -/
theorem algebraic : Cert.algebraic_KernelIdeal_ReferenceIdeal := by
  intro m ρ m' ρ' _ hagree
  refine ⟨fun c => Cert.AddRmsNorm.paddedOut (m ((c.tc : Thread _ _).loc Cert.KernelIdeal.main_arg0))
      (m ((c.tc : Thread _ _).loc Cert.KernelIdeal.main_arg1)) (m ((c.tc : Thread _ _).loc Cert.KernelIdeal.main_arg2)),
    fun c => Cert.AddRmsNorm.resid (m ((c.tc : Thread _ _).loc Cert.KernelIdeal.main_arg0))
      (m ((c.tc : Thread _ _).loc Cert.KernelIdeal.main_arg1)),
    Cert.AddRmsNorm.OnKernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.AddRmsNorm.OnReference.out_eq,
      (hagree c).1, (hagree c).2.1, (hagree c).2.2]
  · rw [(h c).2.1, Cert.ReferenceIdeal.Read.val_main_v0_eq, Cert.AddRmsNorm.OnReference.sum_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
